-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S384x256 : Shape := ⟨2, ![384, 256]⟩
abbrev S384x128 : Shape := ⟨2, ![384, 128]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S384x256 : S_.BroadcastsInDim S384x256 (![] : Fin 0 → Fin S384x256.rank)
  reducesTo_S384x256_S_d0_1 : S384x256.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg9 : FVec F S384 .f32) (main_v33 : IVec S_ 1) : IVec S_ 1 :=
  let main_v34 : FVec F S384 .f32 := Host.absf main_arg9
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg6 : FVec F S384x256 .f32) (main_arg7 : FVec F S384x128 .f32) (main_arg8 : FVec F S384 .f32) (main_arg9 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S384x256 .f32 := Host.absf main_arg6
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg8
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S600000 32) (main_arg2 : IVec S600000 32) (main_arg3 : FVec F S600000 .f32) (main_arg4 : FVec F S128x128 .f32) (main_arg5 : FVec F S128x128 .f32) (main_arg6 : FVec F S384x256 .f32) (main_arg7 : FVec F S384x128 .f32) (main_arg8 : FVec F S384 .f32) (main_arg9 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S50000x128 : Shape := ⟨2, ![50000, 128]⟩
abbrev S600000 : Shape := ⟨1, ![600000]⟩
abbrev S128x128 : Shape := ⟨2, ![128, 128]⟩
abbrev S384x256 : Shape := ⟨2, ![384, 256]⟩
abbrev S384x128 : Shape := ⟨2, ![384, 128]⟩
abbrev S384 : Shape := ⟨1, ![384]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x384 : Shape := ⟨2, ![1, 384]⟩
abbrev S1000x128 : Shape := ⟨2, ![1000, 128]⟩
abbrev S128x384 : Shape := ⟨2, ![128, 384]⟩
abbrev S1000x384 : Shape := ⟨2, ![1000, 384]⟩

abbrev nBuf : Space → Nat
  | .hbm => 92
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128x128, .f32⟩
  | .hbm, ⟨6, _⟩ => ⟨S384x256, .f32⟩
  | .hbm, ⟨7, _⟩ => ⟨S384x128, .f32⟩
  | .hbm, ⟨8, _⟩ => ⟨S384, .f32⟩
  | .hbm, ⟨9, _⟩ => ⟨S384, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S600000x1, .f32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S_, .f32⟩
  | .hbm, ⟨27, _⟩ => ⟨S50000, .f32⟩
  | .hbm, ⟨28, _⟩ => ⟨S600000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x1, .i1⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S_, .f32⟩
  | .hbm, ⟨43, _⟩ => ⟨S50000x128, .i1⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S600000x1, .f32⟩
  | .hbm, ⟨56, _⟩ => ⟨S600000x128, .f32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S600000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .i1⟩
  | .hbm, ⟨69, _⟩ => ⟨S_, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x1, .i1⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S_, .f32⟩
  | .hbm, ⟨79, _⟩ => ⟨S50000x128, .i1⟩
  | .hbm, ⟨80, _⟩ => ⟨S50000x128, .f32⟩
  | .hbm, ⟨81, _⟩ => ⟨S50000x128, .f32⟩
  | .hbm, ⟨82, _⟩ => ⟨S128x128, .bf16⟩
  | .hbm, ⟨83, _⟩ => ⟨S128x128, .bf16⟩
  | .hbm, ⟨84, _⟩ => ⟨S384x128, .f32⟩
  | .hbm, ⟨85, _⟩ => ⟨S384x128, .bf16⟩
  | .hbm, ⟨86, _⟩ => ⟨S384x128, .f32⟩
  | .hbm, ⟨87, _⟩ => ⟨S384x128, .bf16⟩
  | .hbm, ⟨88, _⟩ => ⟨S384x128, .bf16⟩
  | .hbm, ⟨89, _⟩ => ⟨S1x384, .f32⟩
  | .hbm, ⟨90, _⟩ => ⟨S1x384, .f32⟩
  | .hbm, ⟨91, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x128, .bf16⟩
  | .local _ .vmem, ⟨7, _⟩ => ⟨S128x128, .bf16⟩
  | .local _ .vmem, ⟨8, _⟩ => ⟨S384x128, .bf16⟩
  | .local _ .vmem, ⟨9, _⟩ => ⟨S384x128, .bf16⟩
  | .local _ .vmem, ⟨10, _⟩ => ⟨S384x128, .bf16⟩
  | .local _ .vmem, ⟨11, _⟩ => ⟨S1x384, .f32⟩
  | .local _ .vmem, ⟨12, _⟩ => ⟨S1x384, .f32⟩
  | .local _ .vmem, ⟨13, _⟩ => ⟨S1000x128, .f32⟩
  | .local _ .vmem, ⟨14, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_call2_v0 : Ref sig .tc := ⟨.hbm, 70, rfl⟩
abbrev main_call2_v1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  slices_S384x256_S384x128_0_0 : S384x256.Slices ![0, 0] S384x128
  slices_S384x256_S384x128_0_128 : S384x256.Slices ![0, 128] S384x128
  shapeCasts_S384_S1x384 : S384.ShapeCasts S1x384
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x384_S1x384_0_0 : ∀ a, (![0, 0] : Fin 2 → Nat) a + S1x384.size a ≤ S1x384.size a
  h_S1x384 : 0 < S1x384.numel
  shapeCasts_S1x384_S1x384 : S1x384.ShapeCasts S1x384
  transposes_S128x128_p1_0_S128x128 : S128x128.Transposes [1, 0] S128x128
  transposes_S384x128_p1_0_S128x384 : S384x128.Transposes [1, 0] S128x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S1000x128_S128x128_S1000x128_1_0_0_1_n_n_wf : DotDims.WF S1000x128 S128x128 S1000x128 [1] [0] [0] [1] [] []
  dot_S1000x128_S128x384_S1000x384_1_0_0_1_n_n_wf : DotDims.WF S1000x128 S128x384 S1000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x128.size a ≤ S384x128.size a
  hwx0_5 : ∀ i : grid0.Coords, EltTy.bits .bf16 = 32 ∨ (Rect.block (s := S384x128) S384x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x128.size a ≤ S384x128.size a
  hwx0_6 : ∀ i : grid0.Coords, EltTy.bits .bf16 = 32 ∨ (Rect.block (s := S384x128) S384x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x128.size a ≤ S384x128.size a
  hwx0_7 : ∀ i : grid0.Coords, EltTy.bits .bf16 = 32 ∨ (Rect.block (s := S384x128) S384x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x384.size a ≤ S1x384.size a
  hwx0_8 : ∀ i : grid0.Coords, EltTy.bits .f32 = 32 ∨ (Rect.block (s := S1x384) S1x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x128.size a ≤ S50000x128.size a
  hwx0_10 : ∀ i : grid0.Coords, EltTy.bits .f32 = 32 ∨ (Rect.block (s := S50000x128) S1000x128.size (cc0_transform_10 i) (hinb0_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf

abbrev win0_0 : Pipeline.Window sig grid0 :=
  Pipeline.Window.ofSpec (Memref.whole main_v23) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v51) S384x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S384x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v54) S384x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v55) S1x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v56) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v57) S1000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S384x256 : Shape := ⟨2, ![384, 256]⟩
abbrev S384x128 : Shape := ⟨2, ![384, 128]⟩
abbrev S384 : Shape := ⟨1, ![384]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S256x384 : Shape := ⟨2, ![256, 384]⟩
abbrev S50000x384 : Shape := ⟨2, ![50000, 384]⟩
abbrev S1x384 : Shape := ⟨2, ![1, 384]⟩
abbrev S128x384 : Shape := ⟨2, ![128, 384]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S600000, .f32⟩
  | 4 => ⟨S128x128, .f32⟩
  | 5 => ⟨S128x128, .f32⟩
  | 6 => ⟨S384x256, .f32⟩
  | 7 => ⟨S384x128, .f32⟩
  | 8 => ⟨S384, .f32⟩
  | 9 => ⟨S384, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S600000x1, .f32⟩
  | 20 => ⟨S600000x128, .f32⟩
  | 21 => ⟨S600000x128, .f32⟩
  | 22 => ⟨S_, .f32⟩
  | 23 => ⟨S50000x128, .f32⟩
  | 24 => ⟨S600000x1, .i32⟩
  | 25 => ⟨S50000x128, .f32⟩
  | 26 => ⟨S_, .f32⟩
  | 27 => ⟨S50000, .f32⟩
  | 28 => ⟨S600000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S_, .f32⟩
  | 35 => ⟨S50000, .f32⟩
  | 36 => ⟨S50000, .f32⟩
  | 37 => ⟨S50000x1, .f32⟩
  | 38 => ⟨S50000x1, .i1⟩
  | 39 => ⟨S50000x128, .f32⟩
  | 40 => ⟨S50000x128, .f32⟩
  | 41 => ⟨S_, .f32⟩
  | 42 => ⟨S_, .f32⟩
  | 43 => ⟨S50000x128, .i1⟩
  | 44 => ⟨S50000x128, .f32⟩
  | 45 => ⟨S50000x128, .f32⟩
  | 46 => ⟨S_, .i32⟩
  | 47 => ⟨S600000, .i32⟩
  | 48 => ⟨S600000, .i1⟩
  | 49 => ⟨S_, .i32⟩
  | 50 => ⟨S600000, .i32⟩
  | 51 => ⟨S600000, .i32⟩
  | 52 => ⟨S600000, .i32⟩
  | 53 => ⟨S600000x1, .i32⟩
  | 54 => ⟨S600000x128, .f32⟩
  | 55 => ⟨S600000x1, .f32⟩
  | 56 => ⟨S600000x128, .f32⟩
  | 57 => ⟨S600000x128, .f32⟩
  | 58 => ⟨S_, .f32⟩
  | 59 => ⟨S50000x128, .f32⟩
  | 60 => ⟨S600000x1, .i32⟩
  | 61 => ⟨S50000x128, .f32⟩
  | 62 => ⟨S_, .f32⟩
  | 63 => ⟨S50000, .f32⟩
  | 64 => ⟨S600000x1, .i32⟩
  | 65 => ⟨S50000, .f32⟩
  | 66 => ⟨S_, .f32⟩
  | 67 => ⟨S50000, .f32⟩
  | 68 => ⟨S50000, .i1⟩
  | 69 => ⟨S_, .f32⟩
  | 70 => ⟨S_, .f32⟩
  | 71 => ⟨S50000, .f32⟩
  | 72 => ⟨S50000, .f32⟩
  | 73 => ⟨S50000x1, .f32⟩
  | 74 => ⟨S50000x1, .i1⟩
  | 75 => ⟨S50000x128, .f32⟩
  | 76 => ⟨S50000x128, .f32⟩
  | 77 => ⟨S_, .f32⟩
  | 78 => ⟨S_, .f32⟩
  | 79 => ⟨S50000x128, .i1⟩
  | 80 => ⟨S50000x128, .f32⟩
  | 81 => ⟨S50000x128, .f32⟩
  | 82 => ⟨S128x128, .f32⟩
  | 83 => ⟨S50000x128, .f32⟩
  | 84 => ⟨S128x128, .f32⟩
  | 85 => ⟨S50000x128, .f32⟩
  | 86 => ⟨S50000x256, .f32⟩
  | 87 => ⟨S256x384, .f32⟩
  | 88 => ⟨S50000x384, .f32⟩
  | 89 => ⟨S1x384, .f32⟩
  | 90 => ⟨S50000x384, .f32⟩
  | 91 => ⟨S50000x384, .f32⟩
  | 92 => ⟨S128x384, .f32⟩
  | 93 => ⟨S50000x384, .f32⟩
  | 94 => ⟨S1x384, .f32⟩
  | 95 => ⟨S50000x384, .f32⟩
  | 96 => ⟨S50000x384, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_cst_10 : Ref sig .tc := ⟨.hbm, 69, rfl⟩
abbrev main_call2_v0 : Ref sig .tc := ⟨.hbm, 70, rfl⟩
abbrev main_call2_v1 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_12 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_cst_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  concatenates_S50000x128_S50000x128_S50000x256_d1 : Shape.Concatenates [S50000x128, S50000x128] S50000x256 1
  transposes_S384x256_S256x384_1_0 : S384x256.Transposes [1, 0] S256x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  transposes_S384x128_S128x384_1_0 : S384x128.Transposes [1, 0] S128x384
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x256_S256x384_S50000x384_1_0_0_1_n_n_wf : DotDims.WF S50000x256 S256x384 S50000x384 [1] [0] [0] [1] [] []
  dot_S50000x128_S128x384_S50000x384_1_0_0_1_n_n_wf : DotDims.WF S50000x128 S128x384 S50000x384 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x384_S50000x384_1_0_0_1_n_n : DotDims S50000x256 S256x384 S50000x384 where
  lhsContracting := [1]
  rhsContracting := [0]
  lhsNonContracting := [0]
  rhsNonContracting := [1]
  lhsBatch := []
  rhsBatch := []
  wf := dot_S50000x256_S256x384_S50000x384_1_0_0_1_n_n_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.GruSpec.lean ====
/-
  One step of a gated recurrent cell over aggregated neighbourhoods, stated entry by entry on the extended reals.

  For a node with feature row f and the two aggregated neighbourhood rows a1, a2 (all of length 128):
    h1 k = Σ_a a1 a · W1 k a,   h2 k = Σ_a a2 a · W2 k a                 (two projections)
    gi j = Σ_k h1 k · Wi j k + Σ_k h2 k · Wi j (128 + k) + bi j           (j < 384: input-side pre-activations)
    gh j = Σ_k f k · Wh j k + bh j                                         (hidden-side pre-activations)
    r = σ(gi q + gh q),  z = σ(gi (128+q) + gh (128+q)),  n = tanh(gi (256+q) + r · gh (256+q))
    out q = (1 − z) · n + z · f q.
  The input weight Wi is 384 × 256; its two column halves act on h1 and on h2. A product of the joined row
  (h1, h2) with a row of Wi is the sum of the two half products: splitting a finite sum at 128 uses only that
  addition on the extended reals is commutative and associative, so no finiteness is needed.
-/
import Idealize.ShloMosaic.Lib.ValueIdx
import Idealize.ShloMosaic.PureOps.Ideal

noncomputable section

namespace Cert.Gru

open Idealize.ShloMosaic Idealize.ShloMosaic.ValueIdx

/-- Column k of the left half of a 256-wide row. -/
def lo (k : Fin 128) : Fin 256 := ⟨k.val, by omega⟩
/-- Column k of the right half of a 256-wide row. -/
def hi (k : Fin 128) : Fin 256 := ⟨128 + k.val, by omega⟩
/-- Entry q of the first (reset) gate's third of a 384-wide row. -/
def g0 (q : Fin 128) : Fin 384 := ⟨0 + q.val, by omega⟩
/-- Entry q of the second (update) gate's third. -/
def g1 (q : Fin 128) : Fin 384 := ⟨128 + q.val, by omega⟩
/-- Entry q of the third (candidate) gate's third. -/
def g2 (q : Fin 128) : Fin 384 := ⟨256 + q.val, by omega⟩

/-- A row projected by a square weight: h k = Σ_a x a · w k a. -/
def proj (x : Fin 128 → EReal) (w : Fin 128 → Fin 128 → EReal) (k : Fin 128) : EReal :=
  ∑ a : Fin 128, x a * w k a

/-- Input-side pre-activations, the input weight given as its two column halves. -/
def gin (h1 h2 : Fin 128 → EReal) (wi1 wi2 : Fin 384 → Fin 128 → EReal) (bi : Fin 384 → EReal) (j : Fin 384) : EReal :=
  (∑ k : Fin 128, h1 k * wi1 j k) + (∑ k : Fin 128, h2 k * wi2 j k) + bi j

/-- Hidden-side pre-activations. -/
def ghid (f : Fin 128 → EReal) (wh : Fin 384 → Fin 128 → EReal) (bh : Fin 384 → EReal) (j : Fin 384) : EReal :=
  (∑ k : Fin 128, f k * wh j k) + bh j

/-- The real number one, as the float word both programs print for it. -/
def one : EReal := Ideal.ofBits .f32 0x3F800000#32

/-- The gates and the convex update, from the two pre-activation rows. -/
def cell (gi gh : Fin 384 → EReal) (f : Fin 128 → EReal) (q : Fin 128) : EReal :=
  (one - Ideal.logistic (gi (g1 q) + gh (g1 q)))
      * Ideal.tanh (gi (g2 q) + Ideal.logistic (gi (g0 q) + gh (g0 q)) * gh (g2 q))
    + Ideal.logistic (gi (g1 q) + gh (g1 q)) * f q

/-- One output row of the cell. -/
def row (a1 a2 f : Fin 128 → EReal) (w1 w2 : Fin 128 → Fin 128 → EReal) (wi1 wi2 wh : Fin 384 → Fin 128 → EReal)
    (bi bh : Fin 384 → EReal) (q : Fin 128) : EReal :=
  cell (gin (proj a1 w1) (proj a2 w2) wi1 wi2 bi) (ghid f wh bh) f q

/-- The whole result array as one function of the aggregated neighbourhoods, the features and the weights. -/
def G {N : ℕ} (n1 n2 feat : (⟨2, ![N, 128]⟩ : Shape).Idx → EReal) (W1 W2 : (⟨2, ![128, 128]⟩ : Shape).Idx → EReal)
    (Wih : (⟨2, ![384, 256]⟩ : Shape).Idx → EReal) (Whh : (⟨2, ![384, 128]⟩ : Shape).Idx → EReal)
    (bih bhh : (⟨1, ![384]⟩ : Shape).Idx → EReal) : (⟨2, ![N, 128]⟩ : Shape).Idx → EReal :=
  fun i => row (fun a => n1 (ix2 (i 0) a)) (fun a => n2 (ix2 (i 0) a)) (fun a => feat (ix2 (i 0) a))
    (fun k a => W1 (ix2 k a)) (fun k a => W2 (ix2 k a))
    (fun j k => Wih (ix2 j (lo k))) (fun j k => Wih (ix2 j (hi k))) (fun j k => Whh (ix2 j k))
    (fun j => bih (ix1 j)) (fun j => bhh (ix1 j)) (i 1)

/-- The same result array with the weights as the device receives them: the input weight as its two column halves,
    each bias as a one-row matrix. -/
def GK {N : ℕ} (n1 n2 feat : (⟨2, ![N, 128]⟩ : Shape).Idx → EReal) (w1 w2 : (⟨2, ![128, 128]⟩ : Shape).Idx → EReal)
    (wi1 wi2 wh : (⟨2, ![384, 128]⟩ : Shape).Idx → EReal) (bi bh : (⟨2, ![1, 384]⟩ : Shape).Idx → EReal) :
    (⟨2, ![N, 128]⟩ : Shape).Idx → EReal :=
  fun i => row (fun a => n1 (ix2 (i 0) a)) (fun a => n2 (ix2 (i 0) a)) (fun a => feat (ix2 (i 0) a))
    (fun k a => w1 (ix2 k a)) (fun k a => w2 (ix2 k a))
    (fun j k => wi1 (ix2 j k)) (fun j k => wi2 (ix2 j k)) (fun j k => wh (ix2 j k))
    (fun j => bi (ix2 (0 : Fin 1) j)) (fun j => bh (ix2 (0 : Fin 1) j)) (i 1)

/-- The two arrangements agree when the halves are the halves of the input weight and the one-row matrices hold
    the bias vectors. -/
theorem GK_eq_G {N : ℕ} (n1 n2 feat : (⟨2, ![N, 128]⟩ : Shape).Idx → EReal) (W1 W2 : (⟨2, ![128, 128]⟩ : Shape).Idx → EReal)
    (Wih : (⟨2, ![384, 256]⟩ : Shape).Idx → EReal) (Whh : (⟨2, ![384, 128]⟩ : Shape).Idx → EReal)
    (bih bhh : (⟨1, ![384]⟩ : Shape).Idx → EReal)
    (wi1 wi2 : (⟨2, ![384, 128]⟩ : Shape).Idx → EReal) (bi bh : (⟨2, ![1, 384]⟩ : Shape).Idx → EReal)
    (h1 : ∀ (j : Fin 384) (k : Fin 128), wi1 (ix2 j k) = Wih (ix2 j (lo k)))
    (h2 : ∀ (j : Fin 384) (k : Fin 128), wi2 (ix2 j k) = Wih (ix2 j (hi k)))
    (hb1 : ∀ j : Fin 384, bi (ix2 (0 : Fin 1) j) = bih (ix1 j))
    (hb2 : ∀ j : Fin 384, bh (ix2 (0 : Fin 1) j) = bhh (ix1 j)) :
    GK n1 n2 feat W1 W2 wi1 wi2 Whh bi bh = G n1 n2 feat W1 W2 Wih Whh bih bhh := by
  funext i
  unfold GK G
  simp only [h1, h2, hb1, hb2]

/-- A sum over 256 columns is the sum over the left half plus the sum over the right half. -/
theorem sum_halves (c : Fin 256 → EReal) :
    ∑ k : Fin 256, c k = (∑ k : Fin 128, c (lo k)) + ∑ k : Fin 128, c (hi k) :=
  Fin.sum_univ_add (a := 128) (b := 128) c

end Cert.Gru

end
-- ==== Proof.LibPlainDot.lean ====
/-
  A plain matrix product read at an entry, over the extended reals.

  The product of an [M, K] array with a [K, N] array into [M, N] — the left operand's second axis contracted with the
  right operand's first, no batch axes — has at (p, q) the value  Σ_k x(p, k) · w(k, q).  This holds for the device's
  product into the zero accumulator and for the host's product alike: at the ideal instance both are the exact finite
  sum over the contracted coordinate, and the contraction index of a one-axis contraction is that coordinate.
-/
import Idealize.ShloMosaic.Lib.ValueIdx
import Idealize.ShloMosaic.PureOps.Ideal.Laws

namespace Cert.LibPlainDot

open Idealize.ShloMosaic Idealize.ShloMosaic.ValueIdx

variable {M K N : ℕ}

/-- The left operand's row coordinate is the result's row coordinate. -/
theorem lhs_row (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction coordinate. -/
theorem rhs_row (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column coordinate. -/
theorem rhs_col (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- At the k-th contraction coordinate the left operand is read at (p, k). -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => exact lhs_row _ _
  | ⟨1, _⟩ => exact (lhs_col _ _).trans hk

/-- At the k-th contraction coordinate the right operand is read at (k, q). -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact (rhs_row _ _).trans hk
  | ⟨1, _⟩ => exact rhs_col _ _

/-- The device's plain product into the zero accumulator, at (p, q), is Σ_k x(p, k) · w(k, q). -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    matmul (DotDims.plain M K N) prec x w (constant (F := Ideal) ⟨2, ![M, N]⟩ .f32 0x00000000#32) (ix2 p q)
      = ∑ k : Fin K, x (ix2 p k) * w (ix2 k q) := by
  refine (Ideal.matmul_constant_zero_apply (DotDims.plain M K N) prec x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

/-- The host's plain product, at (p, q), is Σ_k x(p, k) · w(k, q). -/
theorem hostDot_apply {φ₁ φ₂ : FTy} (prec : Option ContractPrecision)
    (x : FVec Ideal ⟨2, ![M, K]⟩ φ₁) (w : FVec Ideal ⟨2, ![K, N]⟩ φ₂) (p : Fin M) (q : Fin N) :
    Host.dotGeneral (DotDims.plain M K N) prec x w (ix2 p q) = ∑ k : Fin K, x (ix2 p k) * w (ix2 k q) := by
  refine (Ideal.dotGeneral_apply (DotDims.plain M K N) prec .single x w (ix2 p q)).trans ?_
  refine (Equiv.sum_comp (contrEquiv1 (DotDims.plain M K N) K rfl rfl).symm _).symm.trans ?_
  exact Finset.sum_congr rfl fun k _ => by rw [lhsIdx_eq p q k, rhsIdx_eq p q k]

end Cert.LibPlainDot
-- ==== Proof.LibDotTransposed.lean ====
/-
  A matrix product against a weight stored row by output column, read at an entry, over the extended reals.

  A weight w stored as [N, K] and transposed to [K, N] before a plain product with x of shape [M, K] gives, at
  (p, q), the value  Σ_k x(p, k) · w(q, k):  the transposed array at (k, q) is w at (q, k), and the plain product
  at (p, q) is the sum over the contracted coordinate. This holds for the device's product into the zero
  accumulator and for the host's product alike.
-/
import Idealize.ShloMosaic.Lib.ValueIdx
import Idealize.ShloMosaic.Lib.ValueLayout
import Idealize.ShloMosaic.PureOps.Ideal.Laws
import proofs.«106591_j52055003627520_1_alg».proof.Proof.LibPlainDot

namespace Cert.LibDotTransposed

open Idealize.ShloMosaic Idealize.ShloMosaic.ValueIdx

variable {M K N : ℕ}

/-- The device's product of x with the transpose of w, into the zero accumulator, at (p, q), is Σ_k x(p, k) · w(q, k). -/
theorem matmul_zero_apply {φ₁ φ₂ : FTy} (prec : Option ContractPrecision)
    (x : FVec Ideal ⟨2, ![M, K]⟩ φ₁) (w : FVec Ideal ⟨2, ![N, K]⟩ φ₂)
    (h : (⟨2, ![N, K]⟩ : Shape).Transposes [1, 0] ⟨2, ![K, N]⟩) (p : Fin M) (q : Fin N) :
    matmul (DotDims.plain M K N) prec x (transpose ⟨2, ![K, N]⟩ [1, 0] w h)
        (constant (F := Ideal) ⟨2, ![M, N]⟩ .f32 0x00000000#32) (ix2 p q)
      = ∑ k : Fin K, x (ix2 p k) * w (ix2 q k) :=
  (Cert.LibPlainDot.matmul_zero_apply prec x (transpose ⟨2, ![K, N]⟩ [1, 0] w h) p q).trans
    (Finset.sum_congr rfl fun k _ => by rw [transpose_ix2_apply])

/-- The host's product of x with the transpose of w, at (p, q), is Σ_k x(p, k) · w(q, k). -/
theorem hostDot_apply {φ₁ φ₂ : FTy} (prec : Option ContractPrecision)
    (x : FVec Ideal ⟨2, ![M, K]⟩ φ₁) (w : FVec Ideal ⟨2, ![N, K]⟩ φ₂)
    (h : (⟨2, ![N, K]⟩ : Shape).Transposes [1, 0] ⟨2, ![K, N]⟩) (p : Fin M) (q : Fin N) :
    Host.dotGeneral (DotDims.plain M K N) prec x (transpose ⟨2, ![K, N]⟩ [1, 0] w h) (ix2 p q)
      = ∑ k : Fin K, x (ix2 p k) * w (ix2 q k) :=
  (Cert.LibPlainDot.hostDot_apply prec x (transpose ⟨2, ![K, N]⟩ [1, 0] w h) p q).trans
    (Finset.sum_congr rfl fun k _ => by rw [transpose_ix2_apply])

end Cert.LibDotTransposed
-- ==== Proof.LibSliceCols.lean ====
/-
  A block of consecutive columns cut out of a matrix, read at an entry.

  The unit-stride slice that keeps every row of an [a, b] array and the n columns starting at column off has,
  at (p, q), the array's value at (p, off + q).
-/
import Idealize.ShloMosaic.Lib.Pipeline.Value
import Idealize.ShloMosaic.Lib.ValueIdx

namespace Cert.LibSliceCols

open Idealize.ShloMosaic Idealize.ShloMosaic.ValueIdx

/-- The slice of columns [off, off + n) of x, at (p, q), is x at (p, off + q). -/
theorem slice_cols_apply {α : Type} {a b n : ℕ} (off : ℕ) (x : (⟨2, ![a, b]⟩ : Shape).Idx → α)
    (h : (⟨2, ![a, b]⟩ : Shape).Slices ![0, off] ⟨2, ![a, n]⟩) (hb : off + n ≤ b) (p : Fin a) (q : Fin n) :
    extractStridedSlice ⟨2, ![a, n]⟩ ![0, off] x h (ix2 p q)
      = x (ix2 p ⟨off + q.val, Nat.lt_of_lt_of_le (Nat.add_lt_add_left q.isLt off) hb⟩) :=
  extractStridedSlice_apply ![0, off] x h (ix2 p q) (ix2 p ⟨off + q.val, Nat.lt_of_lt_of_le (Nat.add_lt_add_left q.isLt off) hb⟩)
    fun c => match c with
      | ⟨0, _⟩ => (Nat.zero_add p.val).symm
      | ⟨1, _⟩ => rfl

end Cert.LibSliceCols
-- ==== Proof.KernelRow.lean ====
/-
  What the kernel body computes for one row of its block, on the extended reals.

  The body loads the blocks of the two aggregated neighbourhoods, of the features and the (rounded) weights,
  and stores one [1000, 128] block. Rounding to a narrower float format is the identity on the extended reals
  and a cast to the same shape changes nothing, so the stored value at row p, column q is the gated cell of
  the specification applied to row p of the three row blocks: every matrix product against a transposed weight
  is a sum over the contracted coordinate, the three gates are column slices at offsets 0, 128 and 256 of the
  384-wide pre-activations, and the bias row is broadcast down the rows.
-/
import proofs.«106591_j52055003627520_1_alg».proof.Proof.Gen.KernelIdeal.Skeleton
import proofs.«106591_j52055003627520_1_alg».proof.Proof.GruSpec
import proofs.«106591_j52055003627520_1_alg».proof.Proof.LibDotTransposed
import proofs.«106591_j52055003627520_1_alg».proof.Proof.LibSliceCols
import Idealize.ShloMosaic.Lib.Pipeline.Value
import Idealize.ShloMosaic.Lib.ValueLayout

noncomputable section

namespace Cert.KernelIdeal.Row

open Cert.KernelIdeal Cert.KernelIdeal.Gen Idealize.ShloMosaic Idealize.ShloMosaic.ValueIdx Cert.Gru

/-- The logistic function of a vector, entry by entry. -/
theorem logistic_apply {s : Shape} {φ : FTy} (a : FVec Ideal s φ) (i : s.Idx) : logistic a i = Ideal.logistic (a i) := rfl

/-- The hyperbolic tangent of a vector, entry by entry. -/
theorem tanh_apply {s : Shape} {φ : FTy} (a : FVec Ideal s φ) (i : s.Idx) : tanh a i = Ideal.tanh (a i) := rfl

/-- The 384-wide input-side pre-activations the body forms from the two neighbourhood blocks: at (p, j) the two
    projected rows against the two halves of the input weight, plus the bias. -/
theorem pay5_apply (x0 x1 : Vec Ideal S1000x128 .f32) (x3 x4 : Vec Ideal S128x128 .bf16) (x5 x6 : Vec Ideal S384x128 .bf16)
    (x8 : Vec Ideal S1x384 .f32) (p : Fin 1000) (j : Fin 384) :
    k0_pay5 x0 x1 x3 x4 x5 x6 x8 (ix2 p j)
      = gin (proj (fun a => x0 (ix2 p a)) (fun k a => x3 (ix2 k a))) (proj (fun a => x1 (ix2 p a)) (fun k a => x4 (ix2 k a)))
          (fun j k => x5 (ix2 j k)) (fun j k => x6 (ix2 j k)) (fun j => x8 (ix2 (0 : Fin 1) j)) j := by
  unfold k0_pay5
  simp only [shapeCast_self]
  rw [addf_apply, addf_apply]
  unfold gin
  refine congrArg₂ (· + ·) (congrArg₂ (· + ·) ?_ ?_) ?_
  · refine (Cert.LibDotTransposed.matmul_zero_apply none _ x5 transposes_S384x128_p1_0_S128x384 p j).trans ?_
    refine Finset.sum_congr rfl fun k _ => congrArg (· * x5 (ix2 j k)) ?_
    exact (truncf_apply _ bitsLt_bf16_f32 (ix2 p k)).trans
      (Cert.LibDotTransposed.matmul_zero_apply none (truncf .bf16 x0 bitsLt_bf16_f32) x3 transposes_S128x128_p1_0_S128x128 p k)
  · refine (Cert.LibDotTransposed.matmul_zero_apply none _ x6 transposes_S384x128_p1_0_S128x384 p j).trans ?_
    refine Finset.sum_congr rfl fun k _ => congrArg (· * x6 (ix2 j k)) ?_
    exact (truncf_apply _ bitsLt_bf16_f32 (ix2 p k)).trans
      (Cert.LibDotTransposed.matmul_zero_apply none (truncf .bf16 x1 bitsLt_bf16_f32) x4 transposes_S128x128_p1_0_S128x128 p k)
  · exact broadcastTo_1b_ab_apply x8 broadcasts_S1x384_S1000x384 p j

/-- The 384-wide hidden-side pre-activations: at (p, j) the feature row against row j of the hidden weight, plus the bias. -/
theorem hid_apply (x2 : FVec Ideal S1000x128 .f32) (x7 : FVec Ideal S384x128 .bf16) (x9 : FVec Ideal S1x384 .f32)
    (p : Fin 1000) (j : Fin 384) :
    addf (matmul dot_S1000x128_S128x384_S1000x384_1_0_0_1_n_n none (truncf .bf16 x2 bitsLt_bf16_f32)
        (transpose S128x384 [1, 0] x7 transposes_S384x128_p1_0_S128x384) (constant (F := Ideal) S1000x384 .f32 0x00000000#32))
      (broadcastTo S1000x384 x9 broadcasts_S1x384_S1000x384) (ix2 p j)
      = ghid (fun k => x2 (ix2 p k)) (fun j k => x7 (ix2 j k)) (fun j => x9 (ix2 (0 : Fin 1) j)) j := by
  rw [addf_apply]
  unfold ghid
  refine congrArg₂ (· + ·) ?_ ?_
  · exact Cert.LibDotTransposed.matmul_zero_apply none (truncf .bf16 x2 bitsLt_bf16_f32) x7 transposes_S384x128_p1_0_S128x384 p j
  · exact broadcastTo_1b_ab_apply x9 broadcasts_S1x384_S1000x384 p j

/-- The stored block at (p, q) is the cell's output row for row p of the three row blocks. -/
theorem row_apply (x0 x1 x2 : Vec Ideal S1000x128 .f32) (x3 x4 : Vec Ideal S128x128 .bf16) (x5 x6 x7 : Vec Ideal S384x128 .bf16)
    (x8 x9 : Vec Ideal S1x384 .f32) (p : Fin 1000) (q : Fin 128) :
    k0_pay1 x2 (k0_pay2 x2) (k0_pay3 x7) (k0_pay4 x9) (k0_pay5 x0 x1 x3 x4 x5 x6 x8) (ix2 p q)
      = row (fun a => x0 (ix2 p a)) (fun a => x1 (ix2 p a)) (fun a => x2 (ix2 p a))
          (fun k a => x3 (ix2 k a)) (fun k a => x4 (ix2 k a))
          (fun j k => x5 (ix2 j k)) (fun j k => x6 (ix2 j k)) (fun j k => x7 (ix2 j k))
          (fun j => x8 (ix2 (0 : Fin 1) j)) (fun j => x9 (ix2 (0 : Fin 1) j)) q := by
  unfold k0_pay1 k0_pay2 k0_pay3 k0_pay4
  simp only [shapeCast_self]
  have hi := pay5_apply x0 x1 x3 x4 x5 x6 x8 p
  have hh := hid_apply x2 x7 x9 p
  generalize k0_pay5 x0 x1 x3 x4 x5 x6 x8 = gi at hi ⊢
  generalize addf (matmul dot_S1000x128_S128x384_S1000x384_1_0_0_1_n_n none (truncf .bf16 x2 bitsLt_bf16_f32)
      (transpose S128x384 [1, 0] x7 transposes_S384x128_p1_0_S128x384) (constant (F := Ideal) S1000x384 .f32 0x00000000#32))
    (broadcastTo S1000x384 x9 broadcasts_S1x384_S1000x384) = gh at hh ⊢
  have s0 : ∀ x : FVec Ideal S1000x384 .f32, extractStridedSlice S1000x128 ![0, 0] x slices_S1000x384_o0_0_S1000x128 (ix2 p q) = x (ix2 p (g0 q)) :=
    fun x => Cert.LibSliceCols.slice_cols_apply 0 x slices_S1000x384_o0_0_S1000x128 (by norm_num) p q
  have s1 : ∀ x : FVec Ideal S1000x384 .f32, extractStridedSlice S1000x128 ![0, 128] x slices_S1000x384_o0_128_S1000x128 (ix2 p q) = x (ix2 p (g1 q)) :=
    fun x => Cert.LibSliceCols.slice_cols_apply 128 x slices_S1000x384_o0_128_S1000x128 (by norm_num) p q
  have s2 : ∀ x : FVec Ideal S1000x384 .f32, extractStridedSlice S1000x128 ![0, 256] x slices_S1000x384_o0_256_S1000x128 (ix2 p q) = x (ix2 p (g2 q)) :=
    fun x => Cert.LibSliceCols.slice_cols_apply 256 x slices_S1000x384_o0_256_S1000x128 (by norm_num) p q
  simp only [addf_apply, mulf_apply, subf_apply, broadcast_apply, logistic_apply, tanh_apply, s0, s1, s2, hi, hh]
  rfl

end Cert.KernelIdeal.Row

end
-- ==== Proof.KernelWhole.lean ====
/-
  The kernel's result array as one function of the arrays the region finds.

  The grid has 50 points; point t stages rows [1000·t, 1000·t + 1000) of the two aggregated neighbourhoods and of
  the features, the whole of every weight and bias, and writes back rows [1000·t, 1000·t + 1000) of the result.
  A result row depends only on the same row of the three row arrays, so what point t writes back is block t of
  ONE function of the whole arrays; the 50 blocks cover the result, row r lying in block r / 1000.
-/
import proofs.«106591_j52055003627520_1_alg».proof.Proof.Gen.KernelIdeal.Value
import proofs.«106591_j52055003627520_1_alg».proof.Proof.KernelRow
import proofs.«106591_j52055003627520_1_alg».proof.Proof.GruSpec
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.Gru
open Idealize.ShloMosaic.Pipeline (Dat)

/-- An entry of the stored block is the whole-array function at the array index the block's entry sits at: the row
    blocks hold rows b·1000 + p of their arrays, the weight blocks are their whole arrays. -/
theorem block_entry (X0 X1 X2 : Vec Ideal S1000x128 .f32) (X3 X4 : Vec Ideal S128x128 .bf16) (X5 X6 X7 : Vec Ideal S384x128 .bf16)
    (X8 X9 : Vec Ideal S1x384 .f32) (N1 N2 Ft : S50000x128.Idx → EReal) (W1 W2 : S128x128.Idx → EReal)
    (Wi1 Wi2 Wh : S384x128.Idx → EReal) (Bi Bh : S1x384.Idx → EReal) (b : ℕ) (hb : b * 1000 + 1000 ≤ 50000)
    (h0 : ∀ (p : Fin 1000) (a : Fin 128), X0 (ix2 p a) = N1 (ix2 ⟨b * 1000 + 1 * p.val, by omega⟩ a))
    (h1 : ∀ (p : Fin 1000) (a : Fin 128), X1 (ix2 p a) = N2 (ix2 ⟨b * 1000 + 1 * p.val, by omega⟩ a))
    (h2 : ∀ (p : Fin 1000) (a : Fin 128), X2 (ix2 p a) = Ft (ix2 ⟨b * 1000 + 1 * p.val, by omega⟩ a))
    (e3 : X3 = W1) (e4 : X4 = W2) (e5 : X5 = Wi1) (e6 : X6 = Wi2) (e7 : X7 = Wh) (e8 : X8 = Bi) (e9 : X9 = Bh)
    (y : S1000x128.Idx) (i : S50000x128.Idx) (hi0 : (i 0).val = b * 1000 + 1 * (y 0).val) (hi1 : (i 1).val = 0 * 128 + 1 * (y 1).val) :
    k0_pay1 X2 (k0_pay2 X2) (k0_pay3 X7) (k0_pay4 X9) (k0_pay5 X0 X1 X3 X4 X5 X6 X8) y
      = GK N1 N2 Ft W1 W2 Wi1 Wi2 Wh Bi Bh i := by
  subst e3 e4 e5 e6 e7 e8 e9
  obtain ⟨p, q, rfl⟩ : ∃ (p : Fin 1000) (q : Fin 128), y = ix2 p q := ⟨y 0, y 1, eq_ix2 y⟩
  have hlt : b * 1000 + 1 * p.val < 50000 := by have := p.isLt; omega
  obtain ⟨P, Q, rfl⟩ : ∃ (P : Fin 50000) (Q : Fin 128), i = ix2 P Q := ⟨i 0, i 1, eq_ix2 i⟩
  have hP : P = ⟨b * 1000 + 1 * p.val, hlt⟩ := Fin.ext hi0
  have hQ : Q = q := Fin.ext (hi1.trans (by show 0 * 128 + 1 * q.val = q.val; omega))
  subst hP hQ
  rw [Cert.KernelIdeal.Row.row_apply]
  unfold GK
  simp only [h0, h1, h2]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 50 grid points: the three row windows and the result window sit at block
    (t, 0); every weight and bias window at block (0, 0). -/
theorem idx_facts : ∀ t : Fin cfg0.N,
    (win0_0.index t (0 : Fin 2) = win0_10.index t (0 : Fin 2) ∧ win0_0.index t (1 : Fin 2) = 0)
    ∧ (win0_1.index t (0 : Fin 2) = win0_10.index t (0 : Fin 2) ∧ win0_1.index t (1 : Fin 2) = 0)
    ∧ (win0_2.index t (0 : Fin 2) = win0_10.index t (0 : Fin 2) ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) ≤ 49 ∧ win0_10.index t (1 : Fin 2) = 0) :=
  (by decide +kernel : ∀ t : Fin grid0.N, _)

/-- Every block row of the result is some point's. -/
theorem idx_onto : ∀ q0 : Fin 50, ∃ t : Fin cfg0.N, win0_10.index t = ![q0.val, 0] :=
  (by decide +kernel : ∀ q0 : Fin 50, ∃ t : Fin grid0.N, win0_10.index t = ![q0.val, 0])

/-- The result array as one function of the arrays the region finds. -/
def result (c : Dev nD) : S50000x128.Idx → EReal :=
  GK (V m c main_v23) (V m c main_v47) (V m c main_arg0) (V m c main_v48) (V m c main_v49) (V m c main_v51)
    (V m c main_v53) (V m c main_v54) (V m c main_v55) (V m c main_v56)

/-- Row window 0's block at point t sits at rows t·1000 onward, all 128 columns. -/
theorem emb0 (t : Fin cfg0.N) (p : Fin 1000) (a : Fin 128) (h : win0_10.index t (0 : Fin 2) * 1000 + 1 * p.val < 50000) :
    ((cfg0.win 0).blk t).view.emb (ix2 p a) = ix2 ⟨win0_10.index t (0 : Fin 2) * 1000 + 1 * p.val, h⟩ a := by
  obtain ⟨e0, e1⟩ := (idx_facts t).1
  funext d
  apply Fin.ext
  match d with
  | ⟨0, _⟩ => show win0_0.index t (0 : Fin 2) * 1000 + 1 * p.val = win0_10.index t (0 : Fin 2) * 1000 + 1 * p.val; rw [e0]
  | ⟨1, _⟩ => show win0_0.index t (1 : Fin 2) * 128 + 1 * a.val = a.val; rw [e1]; omega

/-- Row window 1's block at point t sits at rows t·1000 onward, all 128 columns. -/
theorem emb1 (t : Fin cfg0.N) (p : Fin 1000) (a : Fin 128) (h : win0_10.index t (0 : Fin 2) * 1000 + 1 * p.val < 50000) :
    ((cfg0.win 1).blk t).view.emb (ix2 p a) = ix2 ⟨win0_10.index t (0 : Fin 2) * 1000 + 1 * p.val, h⟩ a := by
  obtain ⟨e0, e1⟩ := (idx_facts t).2.1
  funext d
  apply Fin.ext
  match d with
  | ⟨0, _⟩ => show win0_1.index t (0 : Fin 2) * 1000 + 1 * p.val = win0_10.index t (0 : Fin 2) * 1000 + 1 * p.val; rw [e0]
  | ⟨1, _⟩ => show win0_1.index t (1 : Fin 2) * 128 + 1 * a.val = a.val; rw [e1]; omega

/-- Row window 2's block at point t sits at rows t·1000 onward, all 128 columns. -/
theorem emb2 (t : Fin cfg0.N) (p : Fin 1000) (a : Fin 128) (h : win0_10.index t (0 : Fin 2) * 1000 + 1 * p.val < 50000) :
    ((cfg0.win 2).blk t).view.emb (ix2 p a) = ix2 ⟨win0_10.index t (0 : Fin 2) * 1000 + 1 * p.val, h⟩ a := by
  obtain ⟨e0, e1⟩ := (idx_facts t).2.2.1
  funext d
  apply Fin.ext
  match d with
  | ⟨0, _⟩ => show win0_2.index t (0 : Fin 2) * 1000 + 1 * p.val = win0_10.index t (0 : Fin 2) * 1000 + 1 * p.val; rw [e0]
  | ⟨1, _⟩ => show win0_2.index t (1 : Fin 2) * 128 + 1 * a.val = a.val; rw [e1]; omega

/-- Window 3 stages its whole array: its one block sits at the origin. -/
theorem emb3 (t : Fin cfg0.N) (y : S128x128.Idx) : ((cfg0.win 3).blk t).view.emb y = y := by
  obtain ⟨e0, e1⟩ := (idx_facts t).2.2.2.1
  funext d
  apply Fin.ext
  match d with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4 stages its whole array: its one block sits at the origin. -/
theorem emb4 (t : Fin cfg0.N) (y : S128x128.Idx) : ((cfg0.win 4).blk t).view.emb y = y := by
  obtain ⟨e0, e1⟩ := (idx_facts t).2.2.2.2.1
  funext d
  apply Fin.ext
  match d with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5 stages its whole array: its one block sits at the origin. -/
theorem emb5 (t : Fin cfg0.N) (y : S384x128.Idx) : ((cfg0.win 5).blk t).view.emb y = y := by
  obtain ⟨e0, e1⟩ := (idx_facts t).2.2.2.2.2.1
  funext d
  apply Fin.ext
  match d with
  | ⟨0, _⟩ => show win0_5.index t (0 : Fin 2) * 384 + 1 * (y 0).val = (y 0).val; rw [e0]; omega
  | ⟨1, _⟩ => show win0_5.index t (1 : Fin 2) * 128 + 1 * (y 1).val = (y 1).val; rw [e1]; omega

/-- Window 6 stages its whole array: its one block sits at the origin. -/
theorem emb6 (t : Fin cfg0.N) (y : S384x128.Idx) : ((cfg0.win 6).blk t).view.emb y = y := by
  obtain ⟨e0, e1⟩ := (idx_facts t).2.2.2.2.2.2.1
  funext d
  apply Fin.ext
  match d with
  | ⟨0, _⟩ => show win0_6.index t (0 : Fin 2) * 384 + 1 * (y 0).val = (y 0).val; rw [e0]; omega
  | ⟨1, _⟩ => show win0_6.index t (1 : Fin 2) * 128 + 1 * (y 1).val = (y 1).val; rw [e1]; omega

/-- Window 7 stages its whole array: its one block sits at the origin. -/
theorem emb7 (t : Fin cfg0.N) (y : S384x128.Idx) : ((cfg0.win 7).blk t).view.emb y = y := by
  obtain ⟨e0, e1⟩ := (idx_facts t).2.2.2.2.2.2.2.1
  funext d
  apply Fin.ext
  match d with
  | ⟨0, _⟩ => show win0_7.index t (0 : Fin 2) * 384 + 1 * (y 0).val = (y 0).val; rw [e0]; omega
  | ⟨1, _⟩ => show win0_7.index t (1 : Fin 2) * 128 + 1 * (y 1).val = (y 1).val; rw [e1]; omega

/-- Window 8 stages its whole array: its one block sits at the origin. -/
theorem emb8 (t : Fin cfg0.N) (y : S1x384.Idx) : ((cfg0.win 8).blk t).view.emb y = y := by
  obtain ⟨e0, e1⟩ := (idx_facts t).2.2.2.2.2.2.2.2.1
  funext d
  apply Fin.ext
  match d with
  | ⟨0, _⟩ => show win0_8.index t (0 : Fin 2) * 1 + 1 * (y 0).val = (y 0).val; rw [e0]; omega
  | ⟨1, _⟩ => show win0_8.index t (1 : Fin 2) * 384 + 1 * (y 1).val = (y 1).val; rw [e1]; omega

/-- Window 9 stages its whole array: its one block sits at the origin. -/
theorem emb9 (t : Fin cfg0.N) (y : S1x384.Idx) : ((cfg0.win 9).blk t).view.emb y = y := by
  obtain ⟨e0, e1⟩ := (idx_facts t).2.2.2.2.2.2.2.2.2.1
  funext d
  apply Fin.ext
  match d with
  | ⟨0, _⟩ => show win0_9.index t (0 : Fin 2) * 1 + 1 * (y 0).val = (y 0).val; rw [e0]; omega
  | ⟨1, _⟩ => show win0_9.index t (1 : Fin 2) * 384 + 1 * (y 1).val = (y 1).val; rw [e1]; omega

/-- The body's stored value at an entry of point t's block, the staged blocks read off ANY contents VV of the region's
    buffers, is the whole-array function of those contents at the array index the entry sits at. -/
theorem flushed_core (c : Dev nD) (VV : (b : Ref sig .tc) → Buf (Elt Ideal) ((c : Thread nD τ).loc b)) (t : Fin cfg0.N)
    (y : S1000x128.Idx) :
    k0_pay1 (fun y => VV main_arg0 (((cfg0.win 2).blk t).view.emb y)) (k0_pay2 (fun y => VV main_arg0 (((cfg0.win 2).blk t).view.emb y))) (k0_pay3 (fun y => VV main_v54 (((cfg0.win 7).blk t).view.emb y))) (k0_pay4 (fun y => VV main_v56 (((cfg0.win 9).blk t).view.emb y)))
        (k0_pay5 (fun y => VV main_v23 (((cfg0.win 0).blk t).view.emb y)) (fun y => VV main_v47 (((cfg0.win 1).blk t).view.emb y)) (fun y => VV main_v48 (((cfg0.win 3).blk t).view.emb y)) (fun y => VV main_v49 (((cfg0.win 4).blk t).view.emb y))
          (fun y => VV main_v51 (((cfg0.win 5).blk t).view.emb y)) (fun y => VV main_v53 (((cfg0.win 6).blk t).view.emb y)) (fun y => VV main_v55 (((cfg0.win 8).blk t).view.emb y))) y
      = GK (VV main_v23) (VV main_v47) (VV main_arg0) (VV main_v48) (VV main_v49) (VV main_v51) (VV main_v53) (VV main_v54)
          (VV main_v55) (VV main_v56) (((cfg0.win 10).blk t).view.emb y) := by
  have hb : win0_10.index t (0 : Fin 2) ≤ 49 := (idx_facts t).2.2.2.2.2.2.2.2.2.2.1
  have h1 : win0_10.index t (1 : Fin 2) = 0 := (idx_facts t).2.2.2.2.2.2.2.2.2.2.2
  refine block_entry _ _ _ _ _ _ _ _ _ _ (VV main_v23) (VV main_v47) (VV main_arg0) (VV main_v48)
    (VV main_v49) (VV main_v51) (VV main_v53) (VV main_v54) (VV main_v55) (VV main_v56)
    (win0_10.index t (0 : Fin 2)) (by omega)
    (fun p a => congrArg (VV main_v23) (emb0 t p a _))
    (fun p a => congrArg (VV main_v47) (emb1 t p a _))
    (fun p a => congrArg (VV main_arg0) (emb2 t p a _))
    (funext fun y => congrArg (VV main_v48) (emb3 t y))
    (funext fun y => congrArg (VV main_v49) (emb4 t y))
    (funext fun y => congrArg (VV main_v51) (emb5 t y))
    (funext fun y => congrArg (VV main_v53) (emb6 t y))
    (funext fun y => congrArg (VV main_v54) (emb7 t y))
    (funext fun y => congrArg (VV main_v55) (emb8 t y))
    (funext fun y => congrArg (VV main_v56) (emb9 t y))
    y (((cfg0.win 10).blk t).view.emb y) rfl ?_
  show win0_10.index t (1 : Fin 2) * 128 + 1 * (y 1).val = 0 * 128 + 1 * (y 1).val
  rw [h1]

/-- The result window's blocks are not clipped: cutting a block to its window leaves every entry where it was. -/
theorem cut10 (t : Fin cfg0.N) (X : S1000x128.Idx → EReal) (y : ((cfg0.win 10).xblock (grid0.coords t)).Idx) :
    (cfg0.win 10).cut (grid0.coords t) X y = X y := rfl

/-- Reading an array through point t's block of the result window reads it at the block's entry's array index. -/
theorem read10 (t : Fin cfg0.N) (f : S50000x128.Idx → EReal) (y : ((cfg0.win 10).xblock (grid0.coords t)).Idx) :
    ((cfg0.win 10).blk t).view.read (Elt Ideal) f y = f (((cfg0.win 10).blk t).view.emb y) := rfl

/-- What point t writes back is block t of the result function. -/
theorem flushed_eq (c : Dev nD) (t : Fin cfg0.N) :
    (dats m 0 c).flushed 10 t = ((cfg0.win 10).blk t).view.read (Elt Ideal) (result m c) := by
  rw [Cert.KernelIdeal.Value.flushed10]
  unfold out0_10
  rw [View.canon_unit_zero hz]
  simp only [View.ld_unit_zero (S := S1000x128) hz, View.ld_unit_zero (S := S128x128) hz, View.ld_unit_zero (S := S384x128) hz,
    View.ld_unit_zero (S := S1x384) hz]
  funext y
  unfold result
  unfold iblk
  generalize V m c = VV
  refine (cut10 t _ y).trans ?_
  refine Eq.trans ?_ (read10 t _ y).symm
  exact flushed_core c VV t y

/-- An index of the result lies in point t's block iff each coordinate lies in the block's range on its axis. -/
theorem mem_blk (t : Fin cfg0.N) (i : S50000x128.Idx) :
    i ∈ ((cfg0.win 10).blk t).view.set ↔ ∀ a : Fin 2, win0_10.index t a * S1000x128.size a ≤ (i a).val
      ∧ (i a).val < win0_10.index t a * S1000x128.size a + S1000x128.size a := by
  show i ∈ ((View.whole main_v57).slice (win0_10.rect t)).set ↔ _
  rw [View.set_slice_whole, Rect.mem_set_unit]
  exact Iff.rfl

/-- Every index of the result lies in the block of the point its row's thousand names. -/
theorem cover (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  obtain ⟨t, ht⟩ := idx_onto ⟨(i 0).val / 1000, by omega⟩
  have q0 : win0_10.index t (0 : Fin 2) = (i 0).val / 1000 := congrFun ht 0
  have q1 : win0_10.index t (1 : Fin 2) = 0 := congrFun ht 1
  refine ⟨t, flush0_10 t, ?_⟩
  rw [mem_blk]
  intro a
  match a with
  | ⟨0, _⟩ =>
    show win0_10.index t (0 : Fin 2) * 1000 ≤ (i 0).val ∧ (i 0).val < win0_10.index t (0 : Fin 2) * 1000 + 1000
    omega
  | ⟨1, _⟩ =>
    show win0_10.index t (1 : Fin 2) * 128 ≤ (i 1).val ∧ (i 1).val < win0_10.index t (1 : Fin 2) * 128 + 128
    omega

/-- The result array after the run is the result function of the arrays the region finds. -/
theorem final (c : Dev nD) : (dats m 0 c).arrAt 10 cfg0.N = result m c :=
  (dats m 0 c).arrAt_eq_of_cover 10 (result m c) (fun t _ => flushed_eq m c t) cover

/-- The kernel's run, with the result array named by that function and the arguments unchanged. -/
theorem run : θ_run defs (onTc (τ := τ) (main (F := Ideal))) ⟨m, fun _ => 0, ρ⟩ fun r => ∀ c : Dev nD,
      r.2.mem ((c : Thread nD τ).loc main_v57) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.Whole

end
-- ==== Proof.LibJoinCols.lean ====
/-
  Two matrices with the same rows joined side by side, read at an entry.

  The concatenation along the columns of u : [a, b] and v : [a, c] into [a, n] (n = b + c) has, at (p, k) with
  k < b, the value u(p, k), and at (p, b + k) with k < c the value v(p, k).
-/
import Idealize.ShloMosaic.Lib.Pipeline.Value
import Idealize.ShloMosaic.Lib.ValueIdx

namespace Cert.LibJoinCols

open Idealize.ShloMosaic Idealize.ShloMosaic.ValueIdx

variable {α : Type} {a b c n : ℕ}

/-- A column of the left piece. -/
theorem left_apply (u : (⟨2, ![a, b]⟩ : Shape).Idx → α) (v : (⟨2, ![a, c]⟩ : Shape).Idx → α)
    (h : Shape.Concatenates [⟨2, ![a, b]⟩, ⟨2, ![a, c]⟩] ⟨2, ![a, n]⟩ 1) (p : Fin a) (k : Fin b) (hk : k.val < n) :
    concatenate ⟨2, ![a, n]⟩ 1 [⟨⟨2, ![a, b]⟩, u⟩, ⟨⟨2, ![a, c]⟩, v⟩] h (ix2 p ⟨k.val, hk⟩) = u (ix2 p k) :=
  concatenate_pair_apply_left 1 u v h (ix2 p ⟨k.val, hk⟩) rfl (ix2 p k) fun d => match d with
    | ⟨0, _⟩ => rfl
    | ⟨1, _⟩ => rfl

/-- A column of the right piece. -/
theorem right_apply (u : (⟨2, ![a, b]⟩ : Shape).Idx → α) (v : (⟨2, ![a, c]⟩ : Shape).Idx → α)
    (h : Shape.Concatenates [⟨2, ![a, b]⟩, ⟨2, ![a, c]⟩] ⟨2, ![a, n]⟩ 1) (p : Fin a) (k : Fin c) (hk : b + k.val < n) :
    concatenate ⟨2, ![a, n]⟩ 1 [⟨⟨2, ![a, b]⟩, u⟩, ⟨⟨2, ![a, c]⟩, v⟩] h (ix2 p ⟨b + k.val, hk⟩) = v (ix2 p k) :=
  concatenate_pair_apply_right 1 u v h (ix2 p ⟨b + k.val, hk⟩) rfl rfl (ix2 p k)
    (fun d hd => match d, hd with
      | ⟨0, _⟩, _ => rfl
      | ⟨1, _⟩, hd => absurd rfl hd)
    (Nat.add_comm k.val b)

end Cert.LibJoinCols
-- ==== Proof.LibBroadcastInDim.lean ====
/-
  `stablehlo.broadcast_in_dim` in its small keepdims forms, read at an index given by coordinates.

  A vector of length a set as the column [a, 1] (dims [0]) or as the row [1, a] (dims [1]); a column [a, 1] or a row
  [1, b] spread over [a, b] (dims [0, 1]); a scalar spread over any shape (dims []). In each the result at an index
  is the operand at the index with the broadcast axes dropped or set to zero.
-/
import Idealize.ShloMosaic.Lib.Pipeline.Value
import Idealize.ShloMosaic.Lib.ValueIdx

namespace Cert.LibBroadcastInDim

open Idealize.ShloMosaic Idealize.ShloMosaic.ValueIdx

variable {α : Type}

/-- A vector of length `a` set as the column `[a, 1]` reads, at `(p, u)`, the vector at `p`. -/
theorem vec_to_col_apply {a : ℕ} (dims : Fin 1 → Fin 2) (hd : dims 0 = 0)
    (h : (⟨1, ![a]⟩ : Shape).BroadcastsInDim ⟨2, ![a, 1]⟩ dims) (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A vector of length `b` set as the row `[1, b]` reads, at `(u, q)`, the vector at `q`. -/
theorem vec_to_row_apply {b : ℕ} (dims : Fin 1 → Fin 2) (hd : dims 0 = 1)
    (h : (⟨1, ![b]⟩ : Shape).BroadcastsInDim ⟨2, ![1, b]⟩ dims) (v : (⟨1, ![b]⟩ : Shape).Idx → α) (u : Fin 1) (q : Fin b) :
    broadcastInDim ⟨2, ![1, b]⟩ dims h v (ix2 u q) = v (ix1 q) := by
  refine broadcastInDim_apply dims h v (ix2 u q) (ix1 q) fun ax => ?_
  match ax with
  | ⟨0, _⟩ =>
    show q.val = if b = 1 then 0 else ((ix2 u q : (⟨2, ![1, b]⟩ : Shape).Idx) (dims 0)).val
    rw [hd]
    show q.val = if b = 1 then 0 else q.val
    split
    · have := q.isLt; omega
    · rfl

/-- A column `[a, 1]` spread over `[a, b]` reads, at `(p, q)`, the column at `(p, 0)`. -/
theorem col_to_mat_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α) (p : Fin a) (q : Fin b) :
    broadcastInDim ⟨2, ![a, b]⟩ dims h v (ix2 p q) = v (ix2 p (0 : Fin 1)) := by
  refine broadcastInDim_apply dims h v (ix2 p q) (ix2 p (0 : Fin 1)) fun ax => ?_
  match ax with
  | ⟨0, _⟩ =>
    show p.val = if a = 1 then 0 else ((ix2 p q : (⟨2, ![a, b]⟩ : Shape).Idx) (dims 0)).val
    rw [hd0]
    show p.val = if a = 1 then 0 else p.val
    split
    · have := p.isLt; omega
    · rfl
  | ⟨1, _⟩ =>
    show 0 = if (1 : ℕ) = 1 then 0 else ((ix2 p q : (⟨2, ![a, b]⟩ : Shape).Idx) (dims 1)).val
    rw [if_pos rfl]

/-- A row `[1, b]` spread over `[a, b]` reads, at `(p, q)`, the row at `(0, q)`. -/
theorem row_to_mat_apply {a b : ℕ} (dims : Fin 2 → Fin 2) (hd0 : dims 0 = 0) (hd1 : dims 1 = 1)
    (h : (⟨2, ![1, b]⟩ : Shape).BroadcastsInDim ⟨2, ![a, b]⟩ dims) (v : (⟨2, ![1, b]⟩ : Shape).Idx → α) (p : Fin a) (q : Fin b) :
    broadcastInDim ⟨2, ![a, b]⟩ dims h v (ix2 p q) = v (ix2 (0 : Fin 1) q) := by
  refine broadcastInDim_apply dims h v (ix2 p q) (ix2 (0 : Fin 1) q) fun ax => ?_
  match ax with
  | ⟨0, _⟩ =>
    show 0 = if (1 : ℕ) = 1 then 0 else ((ix2 p q : (⟨2, ![a, b]⟩ : Shape).Idx) (dims 0)).val
    rw [if_pos rfl]
  | ⟨1, _⟩ =>
    show q.val = if b = 1 then 0 else ((ix2 p q : (⟨2, ![a, b]⟩ : Shape).Idx) (dims 1)).val
    rw [hd1]
    show q.val = if b = 1 then 0 else q.val
    split
    · have := q.isLt; omega
    · rfl

/-- A scalar spread over any shape reads, everywhere, the scalar. -/
theorem scalar_apply {t : Shape} (dims : Fin 0 → Fin t.rank) (h : (⟨0, ![]⟩ : Shape).BroadcastsInDim t dims)
    (v : (⟨0, ![]⟩ : Shape).Idx → α) (j : t.Idx) : broadcastInDim t dims h v j = v ix0 :=
  broadcastInDim_apply dims h v j ix0 fun ax => ax.elim0

end Cert.LibBroadcastInDim
-- ==== Proof.RefIsGru.lean ====
/-
  The reference's result is the gated cell of the specification, entry by entry.

  The reference projects the two aggregated neighbourhoods, joins the projections into one 256-wide row, multiplies
  by the transposed input weight and adds the bias; the features meet the transposed hidden weight likewise. Read at
  (p, j), each product is a sum over the contracted coordinate; the sum over the joined row's 256 columns splits into
  its two halves, which are the two projections against the two column halves of the input weight. The gates are
  column slices at offsets 0, 128 and 256; the reference spells the logistic function as 1 / (1 + exp(−x)), which is
  its definition on the extended reals, with the float word for one the real one. The aggregated neighbourhoods are
  carried as two arrays that are never opened.
-/
import proofs.«106591_j52055003627520_1_alg».proof.Proof.Gen.ReferenceIdeal.Read
import proofs.«106591_j52055003627520_1_alg».proof.Proof.GruSpec
import proofs.«106591_j52055003627520_1_alg».proof.Proof.LibDotTransposed
import proofs.«106591_j52055003627520_1_alg».proof.Proof.LibSliceCols
import proofs.«106591_j52055003627520_1_alg».proof.Proof.LibJoinCols
import proofs.«106591_j52055003627520_1_alg».proof.Proof.LibBroadcastInDim
import Idealize.ShloMosaic.Lib.Pipeline.Value
import Idealize.ShloMosaic.Lib.ValueLayout
import Idealize.ShloMosaic.Lib.IdealHost

noncomputable section

namespace Cert.ReferenceIdeal.RefGru

open Cert.ReferenceIdeal Cert.ReferenceIdeal.Gen Cert.ReferenceIdeal.Read Idealize.ShloMosaic Idealize.ShloMosaic.ValueIdx Cert.Gru

/-- The host's exponential of a vector, entry by entry. -/
theorem hostExp_apply {s : Shape} {φ : FTy} (a : FVec Ideal s φ) (i : s.Idx) : Host.exp a i = Ideal.exp (a i) := rfl

/-- The host's negation of a vector, entry by entry. -/
theorem hostNegf_apply {s : Shape} {φ : FTy} (a : FVec Ideal s φ) (i : s.Idx) : Host.negf a i = -(a i) := rfl

/-- The host's hyperbolic tangent of a vector, entry by entry. -/
theorem hostTanh_apply {s : Shape} {φ : FTy} (a : FVec Ideal s φ) (i : s.Idx) : Host.tanh a i = Ideal.tanh (a i) := rfl

/-- The input-side pre-activations at (p, j): the joined projections against row j of the input weight, split into
    the two halves, plus the bias. -/
theorem gi_apply (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S600000, .f32⟩ : BufTy).Contents (Elt Ideal))
    (x4 : (⟨S128x128, .f32⟩ : BufTy).Contents (Elt Ideal)) (x5 : (⟨S128x128, .f32⟩ : BufTy).Contents (Elt Ideal)) (x6 : (⟨S384x256, .f32⟩ : BufTy).Contents (Elt Ideal)) (x8 : (⟨S384, .f32⟩ : BufTy).Contents (Elt Ideal))
    (p : Fin 50000) (j : Fin 384) :
    val_main_v57 (F := Ideal) x0 x1 x2 x3 x4 x5 x6 x8 (ix2 p j)
      = gin (proj (fun a => val_main_v23 (F := Ideal) x0 x1 x2 x3 (ix2 p a)) (fun k a => x4 (ix2 k a)))
          (proj (fun a => val_main_v47 (F := Ideal) x0 x1 x2 x3 (ix2 p a)) (fun k a => x5 (ix2 k a)))
          (fun j k => x6 (ix2 j (lo k))) (fun j k => x6 (ix2 j (hi k))) (fun j => x8 (ix1 j)) j := by
  unfold val_main_v57 val_main_v54 val_main_v56 val_main_v55 val_main_v53 val_main_v52 val_main_v49 val_main_v51 val_main_v48 val_main_v50
  generalize val_main_v23 (F := Ideal) x0 x1 x2 x3 = n1
  generalize val_main_v47 (F := Ideal) x0 x1 x2 x3 = n2
  rw [addf_apply]
  unfold gin
  refine congrArg₂ (· + ·) ?_ ?_
  · refine (Cert.LibDotTransposed.hostDot_apply none _ x6 transposes_S384x256_S256x384_1_0 p j).trans ?_
    refine (sum_halves _).trans ?_
    refine congrArg₂ (· + ·) (Finset.sum_congr rfl fun k _ => congrArg (· * x6 (ix2 j (lo k))) ?_)
      (Finset.sum_congr rfl fun k _ => congrArg (· * x6 (ix2 j (hi k))) ?_)
    · exact (Cert.LibJoinCols.left_apply _ _ concatenates_S50000x128_S50000x128_S50000x256_d1 p k (lo k).isLt).trans
        (Cert.LibDotTransposed.hostDot_apply none n1 x4 transposes_S128x128_S128x128_1_0 p k)
    · exact (Cert.LibJoinCols.right_apply _ _ concatenates_S50000x128_S50000x128_S50000x256_d1 p k (hi k).isLt).trans
        (Cert.LibDotTransposed.hostDot_apply none n2 x5 transposes_S128x128_S128x128_1_0 p k)
  · exact (Cert.LibBroadcastInDim.row_to_mat_apply _ rfl rfl bcast_S1x384_S50000x384_0_1 _ p j).trans
      (Cert.LibBroadcastInDim.vec_to_row_apply _ rfl bcast_S384_S1x384_1 x8 0 j)

/-- The hidden-side pre-activations at (p, j): the feature row against row j of the hidden weight, plus the bias. -/
theorem gh_apply (x0 : (⟨S50000x128, .f32⟩ : BufTy).Contents (Elt Ideal)) (x7 : (⟨S384x128, .f32⟩ : BufTy).Contents (Elt Ideal)) (x9 : (⟨S384, .f32⟩ : BufTy).Contents (Elt Ideal))
    (p : Fin 50000) (j : Fin 384) :
    val_main_v62 (F := Ideal) x0 x7 x9 (ix2 p j)
      = ghid (fun k => x0 (ix2 p k)) (fun j k => x7 (ix2 j k)) (fun j => x9 (ix1 j)) j := by
  unfold val_main_v62 val_main_v59 val_main_v61 val_main_v60 val_main_v58
  rw [addf_apply]
  unfold ghid
  refine congrArg₂ (· + ·) ?_ ?_
  · exact Cert.LibDotTransposed.hostDot_apply none x0 x7 transposes_S384x128_S128x384_1_0 p j
  · exact (Cert.LibBroadcastInDim.row_to_mat_apply _ rfl rfl bcast_S1x384_S50000x384_0_1 _ p j).trans
      (Cert.LibBroadcastInDim.vec_to_row_apply _ rfl bcast_S384_S1x384_1 x9 0 j)

/-- The reference's result array is the specification's function of the two aggregated neighbourhoods, the features
    and the weights. -/
theorem result_eq (x0 : (⟨S50000x128, .f32⟩ : BufTy).Contents (Elt Ideal)) (x1 : (⟨S600000, .i32⟩ : BufTy).Contents (Elt Ideal)) (x2 : (⟨S600000, .i32⟩ : BufTy).Contents (Elt Ideal)) (x3 : (⟨S600000, .f32⟩ : BufTy).Contents (Elt Ideal))
    (x4 : (⟨S128x128, .f32⟩ : BufTy).Contents (Elt Ideal)) (x5 : (⟨S128x128, .f32⟩ : BufTy).Contents (Elt Ideal)) (x6 : (⟨S384x256, .f32⟩ : BufTy).Contents (Elt Ideal)) (x7 : (⟨S384x128, .f32⟩ : BufTy).Contents (Elt Ideal))
    (x8 : (⟨S384, .f32⟩ : BufTy).Contents (Elt Ideal)) (x9 : (⟨S384, .f32⟩ : BufTy).Contents (Elt Ideal)) :
    val_main_v90 (F := Ideal) x0 x1 x2 x3 x4 x5 x6 x7 x8 x9
      = G (val_main_v23 (F := Ideal) x0 x1 x2 x3) (val_main_v47 (F := Ideal) x0 x1 x2 x3) x0 x4 x5 x6 x7 x8 x9 := by
  funext i
  obtain ⟨p, q, rfl⟩ : ∃ (p : Fin 50000) (q : Fin 128), i = ix2 p q := ⟨i 0, i 1, eq_ix2 i⟩
  have hi := gi_apply x0 x1 x2 x3 x4 x5 x6 x8 p
  have hh := gh_apply x0 x7 x9 p
  unfold val_main_v90 val_main_v89 val_main_v88 val_main_v87 val_main_v86 val_main_v85 val_main_v84 val_main_v83 val_main_v82
    val_main_v81 val_main_v80 val_main_v79 val_main_v78 val_main_v77 val_main_v76 val_main_v75 val_main_v74 val_main_v73
    val_main_v72 val_main_v71 val_main_v70 val_main_v69 val_main_v68 val_main_v67 val_main_v66 val_main_v65 val_main_v64
    val_main_v63 val_main_cst_12 val_main_cst_13 val_main_cst_14 val_main_cst_15 val_main_cst_16
  generalize val_main_v57 (F := Ideal) x0 x1 x2 x3 x4 x5 x6 x8 = gi at hi ⊢
  generalize val_main_v62 (F := Ideal) x0 x7 x9 = gh at hh ⊢
  have s0 : ∀ x : FVec Ideal S50000x384 .f32, extractStridedSlice S50000x128 ![0, 0] x slices_S50000x384_S50000x128_0_0 (ix2 p q) = x (ix2 p (g0 q)) :=
    fun x => Cert.LibSliceCols.slice_cols_apply 0 x slices_S50000x384_S50000x128_0_0 (by norm_num) p q
  have s1 : ∀ x : FVec Ideal S50000x384 .f32, extractStridedSlice S50000x128 ![0, 128] x slices_S50000x384_S50000x128_0_128 (ix2 p q) = x (ix2 p (g1 q)) :=
    fun x => Cert.LibSliceCols.slice_cols_apply 128 x slices_S50000x384_S50000x128_0_128 (by norm_num) p q
  have s2 : ∀ x : FVec Ideal S50000x384 .f32, extractStridedSlice S50000x128 ![0, 256] x slices_S50000x384_S50000x128_0_256 (ix2 p q) = x (ix2 p (g2 q)) :=
    fun x => Cert.LibSliceCols.slice_cols_apply 256 x slices_S50000x384_S50000x128_0_256 (by norm_num) p q
  have e1 : broadcastInDim S50000x128 ![] bcast_S_S50000x128 (constant (F := Ideal) S_ .f32 0x3F800000#32) (ix2 p q) = (1 : EReal) :=
    (Cert.LibBroadcastInDim.scalar_apply _ bcast_S_S50000x128 _ (ix2 p q)).trans Ideal.ofBits_one_f32
  simp only [addf_apply, mulf_apply, subf_apply, hostDivf_apply, hostExp_apply, hostNegf_apply, hostTanh_apply, s0, s1, s2, e1, hi, hh]
  unfold G row cell
  simp only [Cert.Gru.one, Ideal.ofBits_one_f32, Ideal.logistic]

end Cert.ReferenceIdeal.RefGru

end
-- ==== Proof.HostNeighOut.lean ====
/-
  The first aggregated neighbourhood the region finds is the reference's.

  Both programs aggregate, before anything else, each node's incoming edges: gather the source rows, scale by the edge
  weight, add into the target rows, and divide by the target's summed weight where that is positive (zero rows
  elsewhere). The kernel's program runs these host operations before its region, the reference as its first operations;
  they are the same operations on the same four arguments, so the array the region finds is the reference's
  intermediate value as a function of those arguments. Neither program's aggregation is opened: after the typed
  buffer references' identity transports are dropped the two composed terms agree operation by operation.
-/
import proofs.«106591_j52055003627520_1_alg».proof.Proof.Gen.KernelIdeal.Frame
import proofs.«106591_j52055003627520_1_alg».proof.Proof.Gen.ReferenceIdeal.Read
import Idealize.ShloMosaic.Lib.StableHlo.Run

set_option Elab.async false

noncomputable section

namespace Cert.KernelIdeal.HostNeighOut

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 1000000 in
/-- The aggregation over incoming edges, as the region finds it, is the reference's value of it. -/
theorem neigh (c : Dev nD) : (V m c main_v23 : S50000x128.Idx → EReal)
    = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  simp only [cast_eq, id]
  all_goals rfl

end Cert.KernelIdeal.HostNeighOut

end
-- ==== Proof.HostNeighIn.lean ====
/-
  The second aggregated neighbourhood the region finds is the reference's.

  The same aggregation with the edges reversed (each node's outgoing edges: gather the target rows, add into the source
  rows, divide by the source's summed weight where positive): again the same host operations on the same four
  arguments in both programs, so the array the region finds is the reference's intermediate value; the two composed
  terms agree operation by operation once the typed buffer references' identity transports are dropped.
-/
import proofs.«106591_j52055003627520_1_alg».proof.Proof.Gen.KernelIdeal.Frame
import proofs.«106591_j52055003627520_1_alg».proof.Proof.Gen.ReferenceIdeal.Read
import proofs.«106591_j52055003627520_1_alg».proof.Proof.HostNeighOut
import Idealize.ShloMosaic.Lib.StableHlo.Run

set_option Elab.async false

noncomputable section

namespace Cert.KernelIdeal.HostNeighIn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 1000000 in
/-- The aggregation over outgoing edges, as the region finds it, is the reference's value of it. -/
theorem neigh (c : Dev nD) : (V m c main_v47 : S50000x128.Idx → EReal)
    = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  simp only [cast_eq, id]
  all_goals rfl

end Cert.KernelIdeal.HostNeighIn

end
-- ==== Proof.HostWeights.lean ====
/-
  The weights and biases the region finds, as functions of the arguments.

  Before the region the host rounds the two projection weights and the hidden weight to a narrower float format, cuts
  the input weight into its two column halves and rounds them, and casts the two bias vectors to one-row matrices.
  Each is one or two operations on one argument.
-/
import proofs.«106591_j52055003627520_1_alg».proof.Proof.Gen.KernelIdeal.Frame
import proofs.«106591_j52055003627520_1_alg».proof.Proof.HostNeighIn
import Idealize.ShloMosaic.Lib.StableHlo.Run

set_option Elab.async false

noncomputable section

namespace Cert.KernelIdeal.HostWeights

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 1000000 in
/-- The first projection weight, rounded. -/
theorem w1 (c : Dev nD) : (V m c main_v48 : S128x128.Idx → EReal) = truncf (F := Ideal) .bf16 (m ((c : Thread nD τ).loc main_arg4)) bitsLt_bf16_f32 := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  all_goals (try simp only [cast_eq, id])
  all_goals (try rfl)

set_option maxHeartbeats 1000000 in
/-- The second projection weight, rounded. -/
theorem w2 (c : Dev nD) : (V m c main_v49 : S128x128.Idx → EReal) = truncf (F := Ideal) .bf16 (m ((c : Thread nD τ).loc main_arg5)) bitsLt_bf16_f32 := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  all_goals (try simp only [cast_eq, id])
  all_goals (try rfl)

set_option maxHeartbeats 1000000 in
/-- The left column half of the input weight, rounded. -/
theorem wi1 (c : Dev nD) : (V m c main_v51 : S384x128.Idx → EReal) = truncf (F := Ideal) .bf16 (extractStridedSlice S384x128 ![0, 0] (m ((c : Thread nD τ).loc main_arg6)) slices_S384x256_S384x128_0_0) bitsLt_bf16_f32 := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  all_goals (try simp only [cast_eq, id])
  all_goals (try rfl)

set_option maxHeartbeats 1000000 in
/-- The right column half of the input weight, rounded. -/
theorem wi2 (c : Dev nD) : (V m c main_v53 : S384x128.Idx → EReal) = truncf (F := Ideal) .bf16 (extractStridedSlice S384x128 ![0, 128] (m ((c : Thread nD τ).loc main_arg6)) slices_S384x256_S384x128_0_128) bitsLt_bf16_f32 := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  all_goals (try simp only [cast_eq, id])
  all_goals (try rfl)

set_option maxHeartbeats 1000000 in
/-- The hidden weight, rounded. -/
theorem wh (c : Dev nD) : (V m c main_v54 : S384x128.Idx → EReal) = truncf (F := Ideal) .bf16 (m ((c : Thread nD τ).loc main_arg7)) bitsLt_bf16_f32 := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  all_goals (try simp only [cast_eq, id])
  all_goals (try rfl)

set_option maxHeartbeats 1000000 in
/-- The input-side bias as a one-row matrix. -/
theorem bi (c : Dev nD) : (V m c main_v55 : S1x384.Idx → EReal) = shapeCast S1x384 (m ((c : Thread nD τ).loc main_arg8)) shapeCasts_S384_S1x384 := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  all_goals (try simp only [cast_eq, id])
  all_goals (try rfl)

set_option maxHeartbeats 1000000 in
/-- The hidden-side bias as a one-row matrix. -/
theorem bh (c : Dev nD) : (V m c main_v56 : S1x384.Idx → EReal) = shapeCast S1x384 (m ((c : Thread nD τ).loc main_arg9)) shapeCasts_S384_S1x384 := by
  dsimp only [Gen.V]
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  all_goals (try simp only [cast_eq, id])
  all_goals (try rfl)

end Cert.KernelIdeal.HostWeights

end
-- ==== Proof.Bridge.lean ====
/-
  The kernel's result function, in terms of the arguments, is the specification's.

  The region finds the two aggregated neighbourhoods (the reference's own intermediate values), the features as
  launched, and the weights as the host prepared them: rounded (the identity on the extended reals), the input weight
  cut into its column halves [0, 128) and [128, 256), the biases cast to one-row matrices. With those the device's
  arrangement of the cell is the specification's.
-/
import proofs.«106591_j52055003627520_1_alg».proof.Proof.KernelWhole
import proofs.«106591_j52055003627520_1_alg».proof.Proof.HostNeighOut
import proofs.«106591_j52055003627520_1_alg».proof.Proof.HostNeighIn
import proofs.«106591_j52055003627520_1_alg».proof.Proof.HostWeights
import proofs.«106591_j52055003627520_1_alg».proof.Proof.LibSliceCols
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.ValueIdx Cert.Gru

variable (m : (ℓ : Loc nD τ sig) → Buf (Elt Ideal) ℓ)

/-- The result function of the arrays the region finds is the specification's function of the arguments. -/
theorem result_eq (c : Dev nD) :
    Cert.KernelIdeal.Whole.result m c
      = G (Cert.ReferenceIdeal.Read.val_main_v23 (F := Ideal) (m ((c : Thread nD τ).loc main_arg0)) (m ((c : Thread nD τ).loc main_arg1)) (m ((c : Thread nD τ).loc main_arg2)) (m ((c : Thread nD τ).loc main_arg3)))
          (Cert.ReferenceIdeal.Read.val_main_v47 (F := Ideal) (m ((c : Thread nD τ).loc main_arg0)) (m ((c : Thread nD τ).loc main_arg1)) (m ((c : Thread nD τ).loc main_arg2)) (m ((c : Thread nD τ).loc main_arg3)))
          (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Cert.KernelIdeal.Whole.result
  have e0 := Cert.KernelIdeal.HostNeighOut.neigh m c
  have e1 := Cert.KernelIdeal.HostNeighIn.neigh m c
  have e2 := V_main_arg0 m c
  have e3 := Cert.KernelIdeal.HostWeights.w1 m c
  have e4 := Cert.KernelIdeal.HostWeights.w2 m c
  have e5 := Cert.KernelIdeal.HostWeights.wi1 m c
  have e6 := Cert.KernelIdeal.HostWeights.wi2 m c
  have e7 := Cert.KernelIdeal.HostWeights.wh m c
  have e8 := Cert.KernelIdeal.HostWeights.bi m c
  have e9 := Cert.KernelIdeal.HostWeights.bh m c
  generalize V m c = VV at e0 e1 e2 e3 e4 e5 e6 e7 e8 e9 ⊢
  rw [e0, e1, e2, e3, e4, e5, e6, e7, e8, e9]
  exact GK_eq_G _ _ _ (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ _ _ _
    (fun j k => (Cert.LibSliceCols.slice_cols_apply 0 _ slices_S384x256_S384x128_0_0 (by norm_num) j k).trans
      (congrArg (fun z => (m ((c : Thread nD τ).loc main_arg6)) (ix2 j z)) (Fin.ext (Nat.zero_add k.val))))
    (fun j k => Cert.LibSliceCols.slice_cols_apply 128 _ slices_S384x256_S384x128_0_128 (by norm_num) j k)
    (fun j => shapeCast_a_1a_apply _ shapeCasts_S384_S1x384 0 j)
    (fun j => shapeCast_a_1a_apply _ shapeCasts_S384_S1x384 0 j)

end Cert.KernelIdeal.Bridge

end
-- ==== Proof.lean ====
/-
  A gated recurrent cell over aggregated graph neighbourhoods: the device program against the array program.

  Both programs first aggregate, for every node, the weighted mean of its neighbours' features along incoming and
  along outgoing edges (the same gather, scatter-add and division in both), then apply one step of a gated recurrent
  cell: two projections, the input-side and hidden-side pre-activations, the reset and update gates, the candidate,
  and the convex update. The device program runs the cell in a kernel over 50 blocks of 1000 nodes with the input
  weight cut into its two column halves, where the array program joins the two projections and multiplies once by the
  whole input weight. On the extended reals rounding to a narrower format is the identity, every matrix product is the
  sum over the contracted coordinate, and a sum over the 256 joined columns is the sum over its two halves; the
  array program's 1 / (1 + exp(−x)) is the logistic function. So both results are one function of the arguments
  (Proof/GruSpec.lean), entry by entry. No finiteness of the inputs is used.

  The three frames are the generated ones (the array program's is its generated run with the result dropped); the
  idealization rewrote nothing, so what it preserves is trivially true.
-/
import proofs.«106591_j52055003627520_1_alg».proof.Defs
import proofs.«106591_j52055003627520_1_alg».proof.Proof.Gen.Kernel
import proofs.«106591_j52055003627520_1_alg».proof.Proof.Gen.Kernel.Skeleton
import proofs.«106591_j52055003627520_1_alg».proof.Proof.Gen.Kernel.Launch
import proofs.«106591_j52055003627520_1_alg».proof.Proof.Gen.Kernel.Points
import proofs.«106591_j52055003627520_1_alg».proof.Proof.Gen.Kernel.Frame
import proofs.«106591_j52055003627520_1_alg».proof.Proof.Gen.KernelIdeal
import proofs.«106591_j52055003627520_1_alg».proof.Proof.Gen.KernelIdeal.Skeleton
import proofs.«106591_j52055003627520_1_alg».proof.Proof.Gen.KernelIdeal.Launch
import proofs.«106591_j52055003627520_1_alg».proof.Proof.Gen.KernelIdeal.Points
import proofs.«106591_j52055003627520_1_alg».proof.Proof.Gen.KernelIdeal.Frame
import proofs.«106591_j52055003627520_1_alg».proof.Proof.Gen.ReferenceIdeal
import proofs.«106591_j52055003627520_1_alg».proof.Proof.Gen.Pre_finite_inputs
import proofs.«106591_j52055003627520_1_alg».proof.Proof.Gen.KernelIdeal.Value
import proofs.«106591_j52055003627520_1_alg».proof.Proof.Gen.ReferenceIdeal.Run
import proofs.«106591_j52055003627520_1_alg».proof.Proof.Gen.ReferenceIdeal.Read
import proofs.«106591_j52055003627520_1_alg».proof.Proof.KernelWhole
import proofs.«106591_j52055003627520_1_alg».proof.Proof.RefIsGru
import proofs.«106591_j52055003627520_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The array program's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the specification's function of the arguments: the kernel's result array by its blocks, the
    array program's result by its operations read at an index; the arguments agree by hypothesis. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v90_eq, h0, h1, h2, h3, h4, h5, h6, h7, h8, h9,
    Cert.ReferenceIdeal.RefGru.result_eq]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
